-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel

variable [Facts]

def fn {F : FTy → Type} [FloatOps F] (main_arg0 : FVec F S32768x1000 .f32) (main_arg1 : FVec F S32768x1000 .f32) (main_arg2 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_v4 : FVec F S32768x1000 .f32 := Host.absf main_arg1
  let main_cst_0 : FVec F S_ .f32 := constant S_ .f32 0x7F800000#32
  let main_v5 : FVec F S32768x1000 .f32 := broadcastInDim S32768x1000 ![] bcast_S_S32768x1000 main_cst_0
  let main_v6 : IVec S32768x1000 1 := cmpf .olt main_v4 main_v5
  let main_c_1 : IVec S_ 1 := constantI S_ 1 1#1
  let main_v7 : IVec S_ 1 := (fun x v => Host.reduce IntOp.andi x v reducesTo_S32768x1000_S_d0_1 h_S_) main_v6 main_c_1
  let main_v8 : IVec S_ 1 := andi main_v3 main_v7
  main_v8
-- ==== Kernel.lean ====
abbrev S32768x1000 : Shape := ⟨2, ![32768, 1000]⟩
abbrev S32768 : Shape := ⟨1, ![32768]⟩
abbrev S32768x1 : Shape := ⟨2, ![32768, 1]⟩
abbrev S512x1000 : Shape := ⟨2, ![512, 1000]⟩
abbrev S512x1 : Shape := ⟨2, ![512, 1]⟩
abbrev S512 : Shape := ⟨1, ![512]⟩
abbrev S_ : Shape := ⟨0, ![]⟩
abbrev S1000 : Shape := ⟨1, ![1000]⟩

abbrev nBuf : Space → Nat
  | .hbm => 28
  | .vmem => 6
  | .smem => 0
  | _ => 0

abbrev bufTy : (tb : Table) → Fin (tcTables nBuf tb) → BufTy
  | .hbm, ⟨0, _⟩ => ⟨S32768x1000, .f32⟩
  | .hbm, ⟨1, _⟩ => ⟨S32768x1000, .f32⟩
  | .hbm, ⟨2, _⟩ => ⟨S32768, .i32⟩
  | .hbm, ⟨3, _⟩ => ⟨S32768x1, .f32⟩
  | .hbm, ⟨4, _⟩ => ⟨S32768, .f32⟩
  | .hbm, ⟨5, _⟩ => ⟨S_, .f32⟩
  | .hbm, ⟨6, _⟩ => ⟨S1000, .f32⟩
  | .hbm, ⟨7, _⟩ => ⟨S32768x1, .i32⟩
  | .hbm, ⟨8, _⟩ => ⟨S1000, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S1000, .f32⟩
  | .hbm, ⟨13, _⟩ => ⟨S32768x1, .i32⟩
  | .hbm, ⟨14, _⟩ => ⟨S1000, .f32⟩
  | .hbm, ⟨15, _⟩ => ⟨S_, .f32⟩
  | .hbm, ⟨16, _⟩ => ⟨S1000, .f32⟩
  | .hbm, ⟨17, _⟩ => ⟨S1000, .i1⟩
  | .hbm, ⟨18, _⟩ => ⟨S_, .f32⟩
  | .hbm, ⟨19, _⟩ => ⟨S1000, .f32⟩
  | .hbm, ⟨20, _⟩ => ⟨S1000, .f32⟩
  | .hbm, ⟨21, _⟩ => ⟨S1000, .f32⟩
  | .hbm, ⟨22, _⟩ => ⟨S_, .f32⟩
  | .hbm, ⟨23, _⟩ => ⟨S_, .f32⟩
  | .hbm, ⟨24, _⟩ => ⟨S1000, .f32⟩
  | .hbm, ⟨25, _⟩ => ⟨S1000, .f32⟩
  | .hbm, ⟨26, _⟩ => ⟨S_, .f32⟩
  | .hbm, ⟨27, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1, .f32⟩
  | .local _ .vmem, ⟨5, _⟩ => ⟨S512x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S32768x1_S32768 : S32768x1.ShapeCasts S32768
  bcast_S_S1000 : S_.BroadcastsInDim S1000 (![] : Fin 0 → Fin S1000.rank)
  bcast_S32768_S32768x1_0 : S32768.BroadcastsInDim S32768x1 (![0] : Fin 1 → Fin S32768x1.rank)
  bcast_S_S32768 : S_.BroadcastsInDim S32768 (![] : Fin 0 → Fin S32768.rank)
  reducesTo_S1000_S_d0 : S1000.ReducesTo [0] S_
  h_S_ : 0 < S_.numel
  scatter_S1000_S32768x1_S32768_n_0_0_1_wf : ScatterDims.WF S1000 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S32768x1000.size a
  hwx0_0 : ∀ i : grid0.Coords, EltTy.bits .f32 = 32 ∨ (Rect.block (s := S32768x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S32768x1000.size a
  hwx0_1 : ∀ i : grid0.Coords, EltTy.bits .f32 = 32 ∨ (Rect.block (s := S32768x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S32768 : Shape := ⟨1, ![32768]⟩
abbrev S_ : Shape := ⟨0, ![]⟩
abbrev S32768x1 : Shape := ⟨2, ![32768, 1]⟩
abbrev S1000 : Shape := ⟨1, ![1000]⟩

abbrev nBuf : Space → Nat
  | .hbm => 61
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x1000, .f32⟩
  | .hbm, ⟨2, _⟩ => ⟨S32768, .i32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x1000, .f32⟩
  | .hbm, ⟨10, _⟩ => ⟨S32768x1000, .f32⟩
  | .hbm, ⟨11, _⟩ => ⟨S32768x1000, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x1, .f32⟩
  | .hbm, ⟨16, _⟩ => ⟨S32768x1000, .f32⟩
  | .hbm, ⟨17, _⟩ => ⟨S32768x1000, .f32⟩
  | .hbm, ⟨18, _⟩ => ⟨S_, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768x1, .f32⟩
  | .hbm, ⟨24, _⟩ => ⟨S32768x1000, .f32⟩
  | .hbm, ⟨25, _⟩ => ⟨S32768x1000, .f32⟩
  | .hbm, ⟨26, _⟩ => ⟨S32768x1000, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S32768x1, .f32⟩
  | .hbm, ⟨31, _⟩ => ⟨S32768x1000, .f32⟩
  | .hbm, ⟨32, _⟩ => ⟨S32768x1000, .f32⟩
  | .hbm, ⟨33, _⟩ => ⟨S32768x1000, .f32⟩
  | .hbm, ⟨34, _⟩ => ⟨S32768x1000, .f32⟩
  | .hbm, ⟨35, _⟩ => ⟨S32768x1000, .f32⟩
  | .hbm, ⟨36, _⟩ => ⟨S_, .f32⟩
  | .hbm, ⟨37, _⟩ => ⟨S32768, .f32⟩
  | .hbm, ⟨38, _⟩ => ⟨S_, .f32⟩
  | .hbm, ⟨39, _⟩ => ⟨S1000, .f32⟩
  | .hbm, ⟨40, _⟩ => ⟨S32768x1, .i32⟩
  | .hbm, ⟨41, _⟩ => ⟨S1000, .f32⟩
  | .hbm, ⟨42, _⟩ => ⟨S_, .f32⟩
  | .hbm, ⟨43, _⟩ => ⟨S32768, .f32⟩
  | .hbm, ⟨44, _⟩ => ⟨S_, .f32⟩
  | .hbm, ⟨45, _⟩ => ⟨S1000, .f32⟩
  | .hbm, ⟨46, _⟩ => ⟨S32768x1, .i32⟩
  | .hbm, ⟨47, _⟩ => ⟨S1000, .f32⟩
  | .hbm, ⟨48, _⟩ => ⟨S_, .f32⟩
  | .hbm, ⟨49, _⟩ => ⟨S1000, .f32⟩
  | .hbm, ⟨50, _⟩ => ⟨S1000, .i1⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S1000, .f32⟩
  | .hbm, ⟨55, _⟩ => ⟨S_, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S_, .f32⟩
  | .hbm, ⟨60, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_3 : Ref sig .tc := ⟨.hbm, 48, rfl⟩
abbrev main_v13 : Ref sig .tc := ⟨.hbm, 49, rfl⟩
abbrev main_v14 : Ref sig .tc := ⟨.hbm, 50, rfl⟩
abbrev main_cst_4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_5 : Ref sig .tc := ⟨.hbm, 55, rfl⟩
abbrev main_call2_v0 : Ref sig .tc := ⟨.hbm, 56, rfl⟩
abbrev main_call2_v1 : Ref sig .tc := ⟨.hbm, 57, rfl⟩
abbrev main_v18 : Ref sig .tc := ⟨.hbm, 58, rfl⟩
abbrev main_cst_6 : Ref sig .tc := ⟨.hbm, 59, rfl⟩
abbrev main_v19 : Ref sig .tc := ⟨.hbm, 60, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S1000 : S_.BroadcastsInDim S1000 (![] : Fin 0 → Fin S1000.rank)
  reducesTo_S1000_S_d0 : S1000.ReducesTo [0] S_
  scatter_S1000_S32768x1_S32768_n_0_0_1_wf : ScatterDims.WF S1000 S32768x1 S32768 [] [0] [0] 1

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf

class Facts : Prop extends Facts₀ where

variable [Facts]
-- ==== Proof.RefOps.lean ====
/-
  The reference program's @main as the list of its 58 host operations, in program order: the 15 operations of
  @log_softmax on the first argument, the same 15 on the second, the product of the exponential of the second
  result with the difference of the two, its sum along each row, the two scatter-adds by label (of the row sums
  and of ones), the comparison of the counts with zero, the quotient by 1000 times the count, the selection
  (@_where's 3 operations) and the final sum. Each operation names its operand and result buffers and the pure
  function between their contents; a called function's operations stand in the call's place, over the call's own
  buffers. The list is given twice: `opsT` spells a called function's operations over typed references, as the
  printed program does; `ops` spells every operation with the plain builders. This module holds the two lists only.
-/
import proofs.«167653_j5961414607235_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 58 operations, in order, a called function's operations over typed references. -/
abbrev opsT : List (HloOp τ sig (Elt F)) :=
  [ TRef.nullary (TRef.of (T := ⟨S_, .f32⟩) main_call0_cst) (constant S_ .f32 0xFF800000#32),
    TRef.binary (TRef.of (T := ⟨S32768x1000, .f32⟩) main_arg0) (TRef.of (T := ⟨S_, .f32⟩) main_call0_cst) (TRef.of (T := ⟨S32768, .f32⟩) main_call0_v0) (fun x v => Host.reduce FloatOps.maximumf x v reducesTo_S32768x1000_S32768_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S32768, .f32⟩) main_call0_v1) (broadcastInDim S32768 ![] bcast_S_S32768),
    TRef.binary (TRef.of (T := ⟨S32768, .f32⟩) main_call0_v1) (TRef.of (T := ⟨S32768, .f32⟩) main_call0_v0) (TRef.of (T := ⟨S32768, .f32⟩) main_call0_v2) maximumf,
    TRef.unary (TRef.of (T := ⟨S32768, .f32⟩) main_call0_v2) (TRef.of (T := ⟨S32768x1, .f32⟩) main_call0_v3) (broadcastInDim S32768x1 ![0] bcast_S32768_S32768x1_0),
    TRef.unary (TRef.of (T := ⟨S32768x1, .f32⟩) main_call0_v3) (TRef.of (T := ⟨S32768x1000, .f32⟩) main_call0_v4) (broadcastInDim S32768x1000 ![0, 1] bcast_S32768x1_S32768x1000_0_1),
    TRef.binary (TRef.of (T := ⟨S32768x1000, .f32⟩) main_arg0) (TRef.of (T := ⟨S32768x1000, .f32⟩) main_call0_v4) (TRef.of (T := ⟨S32768x1000, .f32⟩) main_call0_v5) subf,
    TRef.unary (TRef.of (T := ⟨S32768x1000, .f32⟩) main_call0_v5) (TRef.of (T := ⟨S32768x1000, .f32⟩) main_call0_v6) Host.exp,
    TRef.nullary (TRef.of (T := ⟨S_, .f32⟩) main_call0_cst_1) (constant S_ .f32 0x00000000#32),
    TRef.binary (TRef.of (T := ⟨S32768x1000, .f32⟩) main_call0_v6) (TRef.of (T := ⟨S_, .f32⟩) main_call0_cst_1) (TRef.of (T := ⟨S32768, .f32⟩) main_call0_v7) (fun x v => Host.reduceAdd x v reducesTo_S32768x1000_S32768_d1 h_S_),
    TRef.unary (TRef.of (T := ⟨S32768, .f32⟩) main_call0_v7) (TRef.of (T := ⟨S32768x1, .f32⟩) main_call0_v8) (broadcastInDim S32768x1 ![0] bcast_S32768_S32768x1_0),
    TRef.unary (TRef.of (T := ⟨S32768x1, .f32⟩) main_call0_v8) (TRef.of (T := ⟨S32768x1, .f32⟩) main_call0_v9) Host.log,
    TRef.unary (TRef.of (T := ⟨S32768x1, .f32⟩) main_call0_v9) (TRef.of (T := ⟨S32768x1000, .f32⟩) main_call0_v10) (broadcastInDim S32768x1000 ![0, 1] bcast_S32768x1_S32768x1000_0_1),
    TRef.binary (TRef.of (T := ⟨S32768x1000, .f32⟩) main_call0_v5) (TRef.of (T := ⟨S32768x1000, .f32⟩) main_call0_v10) (TRef.of (T := ⟨S32768x1000, .f32⟩) main_v0) subf,
    TRef.nullary (TRef.of (T := ⟨S_, .f32⟩) main_call1_cst) (constant S_ .f32 0xFF800000#32),
    TRef.binary (TRef.of (T := ⟨S32768x1000, .f32⟩) main_arg1) (TRef.of (T := ⟨S_, .f32⟩) main_call1_cst) (TRef.of (T := ⟨S32768, .f32⟩) main_call1_v0) (fun x v => Host.reduce FloatOps.maximumf x v reducesTo_S32768x1000_S32768_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S32768, .f32⟩) main_call1_v1) (broadcastInDim S32768 ![] bcast_S_S32768),
    TRef.binary (TRef.of (T := ⟨S32768, .f32⟩) main_call1_v1) (TRef.of (T := ⟨S32768, .f32⟩) main_call1_v0) (TRef.of (T := ⟨S32768, .f32⟩) main_call1_v2) maximumf,
    TRef.unary (TRef.of (T := ⟨S32768, .f32⟩) main_call1_v2) (TRef.of (T := ⟨S32768x1, .f32⟩) main_call1_v3) (broadcastInDim S32768x1 ![0] bcast_S32768_S32768x1_0),
    TRef.unary (TRef.of (T := ⟨S32768x1, .f32⟩) main_call1_v3) (TRef.of (T := ⟨S32768x1000, .f32⟩) main_call1_v4) (broadcastInDim S32768x1000 ![0, 1] bcast_S32768x1_S32768x1000_0_1),
    TRef.binary (TRef.of (T := ⟨S32768x1000, .f32⟩) main_arg1) (TRef.of (T := ⟨S32768x1000, .f32⟩) main_call1_v4) (TRef.of (T := ⟨S32768x1000, .f32⟩) main_call1_v5) subf,
    TRef.unary (TRef.of (T := ⟨S32768x1000, .f32⟩) main_call1_v5) (TRef.of (T := ⟨S32768x1000, .f32⟩) main_call1_v6) Host.exp,
    TRef.nullary (TRef.of (T := ⟨S_, .f32⟩) main_call1_cst_1) (constant S_ .f32 0x00000000#32),
    TRef.binary (TRef.of (T := ⟨S32768x1000, .f32⟩) main_call1_v6) (TRef.of (T := ⟨S_, .f32⟩) main_call1_cst_1) (TRef.of (T := ⟨S32768, .f32⟩) main_call1_v7) (fun x v => Host.reduceAdd x v reducesTo_S32768x1000_S32768_d1 h_S_),
    TRef.unary (TRef.of (T := ⟨S32768, .f32⟩) main_call1_v7) (TRef.of (T := ⟨S32768x1, .f32⟩) main_call1_v8) (broadcastInDim S32768x1 ![0] bcast_S32768_S32768x1_0),
    TRef.unary (TRef.of (T := ⟨S32768x1, .f32⟩) main_call1_v8) (TRef.of (T := ⟨S32768x1, .f32⟩) main_call1_v9) Host.log,
    TRef.unary (TRef.of (T := ⟨S32768x1, .f32⟩) main_call1_v9) (TRef.of (T := ⟨S32768x1000, .f32⟩) main_call1_v10) (broadcastInDim S32768x1000 ![0, 1] bcast_S32768x1_S32768x1000_0_1),
    TRef.binary (TRef.of (T := ⟨S32768x1000, .f32⟩) main_call1_v5) (TRef.of (T := ⟨S32768x1000, .f32⟩) main_call1_v10) (TRef.of (T := ⟨S32768x1000, .f32⟩) main_v1) subf,
    unary main_v1 main_v2 (Host.exp : (⟨S32768x1000, .f32⟩ : BufTy).Contents (Elt F) → (⟨S32768x1000, .f32⟩ : BufTy).Contents (Elt F)),
    binary main_v1 main_v0 main_v3 (subf : (⟨S32768x1000, .f32⟩ : BufTy).Contents (Elt F) → (⟨S32768x1000, .f32⟩ : BufTy).Contents (Elt F) → (⟨S32768x1000, .f32⟩ : BufTy).Contents (Elt F)),
    binary main_v2 main_v3 main_v4 (mulf : (⟨S32768x1000, .f32⟩ : BufTy).Contents (Elt F) → (⟨S32768x1000, .f32⟩ : BufTy).Contents (Elt F) → (⟨S32768x1000, .f32⟩ : BufTy).Contents (Elt F)),
    nullary main_cst (constant S_ .f32 0x00000000#32),
    binary main_v4 main_cst main_v5 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_cst_0 (constant S_ .f32 0x00000000#32),
    unary main_cst_0 main_v6 (broadcastInDim S1000 ![] bcast_S_S1000 : (⟨S_, .f32⟩ : BufTy).Contents (Elt F) → (⟨S1000, .f32⟩ : BufTy).Contents (Elt F)),
    unary main_arg2 main_v7 (broadcastInDim S32768x1 ![0] bcast_S32768_S32768x1_0 : (⟨S32768, .i32⟩ : BufTy).Contents (Elt F) → (⟨S32768x1, .i32⟩ : BufTy).Contents (Elt F)),
    ternary main_v6 main_v7 main_v5 main_v8 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)),
    nullary main_cst_1 (constant S_ .f32 0x3F800000#32),
    unary main_cst_1 main_v9 (broadcastInDim S32768 ![] bcast_S_S32768 : (⟨S_, .f32⟩ : BufTy).Contents (Elt F) → (⟨S32768, .f32⟩ : BufTy).Contents (Elt F)),
    nullary main_cst_2 (constant S_ .f32 0x00000000#32),
    unary main_cst_2 main_v10 (broadcastInDim S1000 ![] bcast_S_S1000 : (⟨S_, .f32⟩ : BufTy).Contents (Elt F) → (⟨S1000, .f32⟩ : BufTy).Contents (Elt F)),
    unary main_arg2 main_v11 (broadcastInDim S32768x1 ![0] bcast_S32768_S32768x1_0 : (⟨S32768, .i32⟩ : BufTy).Contents (Elt F) → (⟨S32768x1, .i32⟩ : BufTy).Contents (Elt F)),
    ternary main_v10 main_v11 main_v9 main_v12 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)),
    nullary main_cst_3 (constant S_ .f32 0x00000000#32),
    unary main_cst_3 main_v13 (broadcastInDim S1000 ![] bcast_S_S1000 : (⟨S_, .f32⟩ : BufTy).Contents (Elt F) → (⟨S1000, .f32⟩ : BufTy).Contents (Elt F)),
    binary main_v12 main_v13 main_v14 (cmpf .ogt : (⟨S1000, .f32⟩ : BufTy).Contents (Elt F) → (⟨S1000, .f32⟩ : BufTy).Contents (Elt F) → (⟨S1000, .i1⟩ : BufTy).Contents (Elt F)),
    nullary main_cst_4 (constant S_ .f32 0x447A0000#32),
    unary main_cst_4 main_v15 (broadcastInDim S1000 ![] bcast_S_S1000 : (⟨S_, .f32⟩ : BufTy).Contents (Elt F) → (⟨S1000, .f32⟩ : BufTy).Contents (Elt F)),
    binary main_v12 main_v15 main_v16 (mulf : (⟨S1000, .f32⟩ : BufTy).Contents (Elt F) → (⟨S1000, .f32⟩ : BufTy).Contents (Elt F) → (⟨S1000, .f32⟩ : BufTy).Contents (Elt F)),
    binary main_v8 main_v16 main_v17 (Host.divf : (⟨S1000, .f32⟩ : BufTy).Contents (Elt F) → (⟨S1000, .f32⟩ : BufTy).Contents (Elt F) → (⟨S1000, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S1000, .f32⟩) main_call2_v1) (broadcastInDim S1000 ![] bcast_S_S1000),
    TRef.ternary (TRef.of (T := ⟨S1000, .i1⟩) main_v14) (TRef.of (T := ⟨S1000, .f32⟩) main_v17) (TRef.of (T := ⟨S1000, .f32⟩) main_call2_v1) (TRef.of (T := ⟨S1000, .f32⟩) main_v18) select,
    nullary main_cst_6 (constant S_ .f32 0x00000000#32),
    binary main_v18 main_cst_6 main_v19 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)) ]

/-- The same 58 operations, every one with the plain builders. -/
abbrev ops : List (HloOp τ sig (Elt F)) :=
  [ nullary main_call0_cst (constant S_ .f32 0xFF800000#32),
    binary main_arg0 main_call0_cst main_call0_v0 ((fun x v => Host.reduce FloatOps.maximumf x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_call0_cst_0 (constant S_ .f32 0xFF800000#32),
    unary main_call0_cst_0 main_call0_v1 ((broadcastInDim S32768 ![] bcast_S_S32768) : (⟨S_, .f32⟩ : BufTy).Contents (Elt F) → (⟨S32768, .f32⟩ : BufTy).Contents (Elt F)),
    binary main_call0_v1 main_call0_v0 main_call0_v2 (maximumf : (⟨S32768, .f32⟩ : BufTy).Contents (Elt F) → (⟨S32768, .f32⟩ : BufTy).Contents (Elt F) → (⟨S32768, .f32⟩ : BufTy).Contents (Elt F)),
    unary main_call0_v2 main_call0_v3 ((broadcastInDim S32768x1 ![0] bcast_S32768_S32768x1_0) : (⟨S32768, .f32⟩ : BufTy).Contents (Elt F) → (⟨S32768x1, .f32⟩ : BufTy).Contents (Elt F)),
    unary main_call0_v3 main_call0_v4 ((broadcastInDim S32768x1000 ![0, 1] bcast_S32768x1_S32768x1000_0_1) : (⟨S32768x1, .f32⟩ : BufTy).Contents (Elt F) → (⟨S32768x1000, .f32⟩ : BufTy).Contents (Elt F)),
    binary main_arg0 main_call0_v4 main_call0_v5 (subf : (⟨S32768x1000, .f32⟩ : BufTy).Contents (Elt F) → (⟨S32768x1000, .f32⟩ : BufTy).Contents (Elt F) → (⟨S32768x1000, .f32⟩ : BufTy).Contents (Elt F)),
    unary main_call0_v5 main_call0_v6 (Host.exp : (⟨S32768x1000, .f32⟩ : BufTy).Contents (Elt F) → (⟨S32768x1000, .f32⟩ : BufTy).Contents (Elt F)),
    nullary main_call0_cst_1 (constant S_ .f32 0x00000000#32),
    binary main_call0_v6 main_call0_cst_1 main_call0_v7 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_call0_v7 main_call0_v8 ((broadcastInDim S32768x1 ![0] bcast_S32768_S32768x1_0) : (⟨S32768, .f32⟩ : BufTy).Contents (Elt F) → (⟨S32768x1, .f32⟩ : BufTy).Contents (Elt F)),
    unary main_call0_v8 main_call0_v9 (Host.log : (⟨S32768x1, .f32⟩ : BufTy).Contents (Elt F) → (⟨S32768x1, .f32⟩ : BufTy).Contents (Elt F)),
    unary main_call0_v9 main_call0_v10 ((broadcastInDim S32768x1000 ![0, 1] bcast_S32768x1_S32768x1000_0_1) : (⟨S32768x1, .f32⟩ : BufTy).Contents (Elt F) → (⟨S32768x1000, .f32⟩ : BufTy).Contents (Elt F)),
    binary main_call0_v5 main_call0_v10 main_v0 (subf : (⟨S32768x1000, .f32⟩ : BufTy).Contents (Elt F) → (⟨S32768x1000, .f32⟩ : BufTy).Contents (Elt F) → (⟨S32768x1000, .f32⟩ : BufTy).Contents (Elt F)),
    nullary main_call1_cst (constant S_ .f32 0xFF800000#32),
    binary main_arg1 main_call1_cst main_call1_v0 ((fun x v => Host.reduce FloatOps.maximumf x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_call1_cst_0 (constant S_ .f32 0xFF800000#32),
    unary main_call1_cst_0 main_call1_v1 ((broadcastInDim S32768 ![] bcast_S_S32768) : (⟨S_, .f32⟩ : BufTy).Contents (Elt F) → (⟨S32768, .f32⟩ : BufTy).Contents (Elt F)),
    binary main_call1_v1 main_call1_v0 main_call1_v2 (maximumf : (⟨S32768, .f32⟩ : BufTy).Contents (Elt F) → (⟨S32768, .f32⟩ : BufTy).Contents (Elt F) → (⟨S32768, .f32⟩ : BufTy).Contents (Elt F)),
    unary main_call1_v2 main_call1_v3 ((broadcastInDim S32768x1 ![0] bcast_S32768_S32768x1_0) : (⟨S32768, .f32⟩ : BufTy).Contents (Elt F) → (⟨S32768x1, .f32⟩ : BufTy).Contents (Elt F)),
    unary main_call1_v3 main_call1_v4 ((broadcastInDim S32768x1000 ![0, 1] bcast_S32768x1_S32768x1000_0_1) : (⟨S32768x1, .f32⟩ : BufTy).Contents (Elt F) → (⟨S32768x1000, .f32⟩ : BufTy).Contents (Elt F)),
    binary main_arg1 main_call1_v4 main_call1_v5 (subf : (⟨S32768x1000, .f32⟩ : BufTy).Contents (Elt F) → (⟨S32768x1000, .f32⟩ : BufTy).Contents (Elt F) → (⟨S32768x1000, .f32⟩ : BufTy).Contents (Elt F)),
    unary main_call1_v5 main_call1_v6 (Host.exp : (⟨S32768x1000, .f32⟩ : BufTy).Contents (Elt F) → (⟨S32768x1000, .f32⟩ : BufTy).Contents (Elt F)),
    nullary main_call1_cst_1 (constant S_ .f32 0x00000000#32),
    binary main_call1_v6 main_call1_cst_1 main_call1_v7 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_call1_v7 main_call1_v8 ((broadcastInDim S32768x1 ![0] bcast_S32768_S32768x1_0) : (⟨S32768, .f32⟩ : BufTy).Contents (Elt F) → (⟨S32768x1, .f32⟩ : BufTy).Contents (Elt F)),
    unary main_call1_v8 main_call1_v9 (Host.log : (⟨S32768x1, .f32⟩ : BufTy).Contents (Elt F) → (⟨S32768x1, .f32⟩ : BufTy).Contents (Elt F)),
    unary main_call1_v9 main_call1_v10 ((broadcastInDim S32768x1000 ![0, 1] bcast_S32768x1_S32768x1000_0_1) : (⟨S32768x1, .f32⟩ : BufTy).Contents (Elt F) → (⟨S32768x1000, .f32⟩ : BufTy).Contents (Elt F)),
    binary main_call1_v5 main_call1_v10 main_v1 (subf : (⟨S32768x1000, .f32⟩ : BufTy).Contents (Elt F) → (⟨S32768x1000, .f32⟩ : BufTy).Contents (Elt F) → (⟨S32768x1000, .f32⟩ : BufTy).Contents (Elt F)),
    unary main_v1 main_v2 (Host.exp : (⟨S32768x1000, .f32⟩ : BufTy).Contents (Elt F) → (⟨S32768x1000, .f32⟩ : BufTy).Contents (Elt F)),
    binary main_v1 main_v0 main_v3 (subf : (⟨S32768x1000, .f32⟩ : BufTy).Contents (Elt F) → (⟨S32768x1000, .f32⟩ : BufTy).Contents (Elt F) → (⟨S32768x1000, .f32⟩ : BufTy).Contents (Elt F)),
    binary main_v2 main_v3 main_v4 (mulf : (⟨S32768x1000, .f32⟩ : BufTy).Contents (Elt F) → (⟨S32768x1000, .f32⟩ : BufTy).Contents (Elt F) → (⟨S32768x1000, .f32⟩ : BufTy).Contents (Elt F)),
    nullary main_cst (constant S_ .f32 0x00000000#32),
    binary main_v4 main_cst main_v5 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_cst_0 (constant S_ .f32 0x00000000#32),
    unary main_cst_0 main_v6 (broadcastInDim S1000 ![] bcast_S_S1000 : (⟨S_, .f32⟩ : BufTy).Contents (Elt F) → (⟨S1000, .f32⟩ : BufTy).Contents (Elt F)),
    unary main_arg2 main_v7 (broadcastInDim S32768x1 ![0] bcast_S32768_S32768x1_0 : (⟨S32768, .i32⟩ : BufTy).Contents (Elt F) → (⟨S32768x1, .i32⟩ : BufTy).Contents (Elt F)),
    ternary main_v6 main_v7 main_v5 main_v8 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)),
    nullary main_cst_1 (constant S_ .f32 0x3F800000#32),
    unary main_cst_1 main_v9 (broadcastInDim S32768 ![] bcast_S_S32768 : (⟨S_, .f32⟩ : BufTy).Contents (Elt F) → (⟨S32768, .f32⟩ : BufTy).Contents (Elt F)),
    nullary main_cst_2 (constant S_ .f32 0x00000000#32),
    unary main_cst_2 main_v10 (broadcastInDim S1000 ![] bcast_S_S1000 : (⟨S_, .f32⟩ : BufTy).Contents (Elt F) → (⟨S1000, .f32⟩ : BufTy).Contents (Elt F)),
    unary main_arg2 main_v11 (broadcastInDim S32768x1 ![0] bcast_S32768_S32768x1_0 : (⟨S32768, .i32⟩ : BufTy).Contents (Elt F) → (⟨S32768x1, .i32⟩ : BufTy).Contents (Elt F)),
    ternary main_v10 main_v11 main_v9 main_v12 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)),
    nullary main_cst_3 (constant S_ .f32 0x00000000#32),
    unary main_cst_3 main_v13 (broadcastInDim S1000 ![] bcast_S_S1000 : (⟨S_, .f32⟩ : BufTy).Contents (Elt F) → (⟨S1000, .f32⟩ : BufTy).Contents (Elt F)),
    binary main_v12 main_v13 main_v14 (cmpf .ogt : (⟨S1000, .f32⟩ : BufTy).Contents (Elt F) → (⟨S1000, .f32⟩ : BufTy).Contents (Elt F) → (⟨S1000, .i1⟩ : BufTy).Contents (Elt F)),
    nullary main_cst_4 (constant S_ .f32 0x447A0000#32),
    unary main_cst_4 main_v15 (broadcastInDim S1000 ![] bcast_S_S1000 : (⟨S_, .f32⟩ : BufTy).Contents (Elt F) → (⟨S1000, .f32⟩ : BufTy).Contents (Elt F)),
    binary main_v12 main_v15 main_v16 (mulf : (⟨S1000, .f32⟩ : BufTy).Contents (Elt F) → (⟨S1000, .f32⟩ : BufTy).Contents (Elt F) → (⟨S1000, .f32⟩ : BufTy).Contents (Elt F)),
    binary main_v8 main_v16 main_v17 (Host.divf : (⟨S1000, .f32⟩ : BufTy).Contents (Elt F) → (⟨S1000, .f32⟩ : BufTy).Contents (Elt F) → (⟨S1000, .f32⟩ : BufTy).Contents (Elt F)),
    nullary main_cst_5 (constant S_ .f32 0x00000000#32),
    unary main_cst_5 main_call2_v0 (id : (⟨S_, .f32⟩ : BufTy).Contents (Elt F) → (⟨S_, .f32⟩ : BufTy).Contents (Elt F)),
    unary main_call2_v0 main_call2_v1 ((broadcastInDim S1000 ![] bcast_S_S1000) : (⟨S_, .f32⟩ : BufTy).Contents (Elt F) → (⟨S1000, .f32⟩ : BufTy).Contents (Elt F)),
    ternary main_v14 main_v17 main_call2_v1 main_v18 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)),
    nullary main_cst_6 (constant S_ .f32 0x00000000#32),
    binary main_v18 main_cst_6 main_v19 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)) ]

end Cert.ReferenceIdeal.RefRun

end
-- ==== Proof.RefRun.lean ====
/-
  The reference program's run, read as three stages.

  The reference computes, from two arrays `x0`, `x1` of 32768 rows of 1000 scores and an array of 32768 integer labels:
    * the row-wise log-softmax of each array — from every entry the row's maximum is subtracted first, then the
      logarithm of the row's sum of the exponentials of those differences (`logSoftmaxRows`);
    * for every row the sum over its 1000 entries of `exp (ls x1) · (ls x1 - ls x0)` (`rowSums`);
    * from the row sums and the labels one number: the row sums and ones are each scatter-added by label into 1000
      classes, each class's sum is divided by 1000 times its count, classes with no row are put to zero, and the 1000
      quotients are added (`classMean`).
  The run theorem says that every weakly fair execution of the program terminates with the result buffer holding
  `classMean labels (rowSums x0 x1)` of the argument arrays as launched, and the argument arrays unchanged: the program is
  the sequence of its 58 operations, each writing one buffer as a pure function of buffers written before it, so the
  result buffer's final contents is the composition of those functions along the data flow.
-/
import proofs.«167653_j5961414607235_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Every entry replaced by its row's maximum (the maximum reduced from -∞ along each row, then spread back over the row). -/
def rowMaxSpread (x : FVec F S32768x1000 .f32) : FVec F S32768x1000 .f32 :=
  broadcastInDim S32768x1000 ![0, 1] bcast_S32768x1_S32768x1000_0_1 (broadcastInDim S32768x1 ![0] bcast_S32768_S32768x1_0 (maximumf (broadcastInDim S32768 ![] bcast_S_S32768 (constant S_ .f32 0xFF800000#32)) (Host.reduce FloatOps.maximumf x (constant S_ .f32 0xFF800000#32) reducesTo_S32768x1000_S32768_d1 h_S_)))

/-- Every entry less its row's maximum. -/
def shifted (x : FVec F S32768x1000 .f32) : FVec F S32768x1000 .f32 := subf x (rowMaxSpread x)

/-- The row-wise log-softmax: the shifted entry less the logarithm of the row's sum of the exponentials of the shifted entries. -/
def logSoftmaxRows (x : FVec F S32768x1000 .f32) : FVec F S32768x1000 .f32 :=
  subf (shifted x) (broadcastInDim S32768x1000 ![0, 1] bcast_S32768x1_S32768x1000_0_1 (Host.log (broadcastInDim S32768x1 ![0] bcast_S32768_S32768x1_0 (Host.reduceAdd (Host.exp (shifted x)) (constant S_ .f32 0x00000000#32) reducesTo_S32768x1000_S32768_d1 h_S_))))

/-- For every row, the sum over its entries of `exp (ls x1) · (ls x1 - ls x0)`. -/
def rowSums (x0 x1 : FVec F S32768x1000 .f32) : FVec F S32768 .f32 :=
  Host.reduceAdd (mulf (Host.exp (logSoftmaxRows x1)) (subf (logSoftmaxRows x1) (logSoftmaxRows x0))) (constant S_ .f32 0x00000000#32) reducesTo_S32768x1000_S32768_d1 h_S_

/-- How many rows carry each of the 1000 labels: ones scatter-added by label. -/
def counts (lbl : IVec S32768 32) : FVec F S1000 .f32 :=
  Host.scatterAdd scatter_S1000_S32768x1_S32768_n_0_0_1 (broadcastInDim S1000 ![] bcast_S_S1000 (constant S_ .f32 0x00000000#32)) (broadcastInDim S32768x1 ![0] bcast_S32768_S32768x1_0 lbl) (broadcastInDim S32768 ![] bcast_S_S32768 (constant S_ .f32 0x3F800000#32))

/-- From per-row numbers and labels: each class's sum over 1000 times its count, zero for a class with no row, the 1000 added. -/
def classMean (lbl : IVec S32768 32) (rk : FVec F S32768 .f32) : FVec F S_ .f32 :=
  Host.reduceAdd (select (cmpf .ogt (counts (F := F) lbl) (broadcastInDim S1000 ![] bcast_S_S1000 (constant S_ .f32 0x00000000#32))) (Host.divf (Host.scatterAdd scatter_S1000_S32768x1_S32768_n_0_0_1 (broadcastInDim S1000 ![] bcast_S_S1000 (constant S_ .f32 0x00000000#32)) (broadcastInDim S32768x1 ![0] bcast_S32768_S32768x1_0 lbl) rk) (mulf (counts (F := F) lbl) (broadcastInDim S1000 ![] bcast_S_S1000 (constant S_ .f32 0x447A0000#32)))) (broadcastInDim S1000 ![] bcast_S_S1000 (id (constant S_ .f32 0x00000000#32)))) (constant S_ .f32 0x00000000#32) reducesTo_S1000_S_d0 h_S_

/-! ## The program is its operations -/

set_option maxRecDepth 8192 in
/-- @main is the sequence of its operations as it spells them, a called function's operations in the call's place. -/
theorem main_eq_typed (c : Dev nD) : main (F := F) c = seq opsT := rfl

section
-- The two spellings of an operation that carries a reduction have the SAME reduction (a fold over all 32,768,000 positions
-- of its operand) and differ only in the identity transports around it: the reduction stays one symbol on both sides.
attribute [local irreducible] Host.reduce

/-- The two spellings of the list agree operation by operation: over a literal buffer a typed reference's transports
    along the equation "the buffer's type is the value's" are the identity. -/
theorem opsT_eq_ops : (opsT : List (HloOp τ sig (Elt F))) = ops := by
  iterate 58 refine congrArg₂ List.cons (by rfl) ?_
  rfl

end

/-- @main is the sequence of its operations. -/
theorem main_eq (c : Dev nD) : main (F := F) c = seq ops := (main_eq_typed c).trans (congrArg seq opsT_eq_ops)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the TensorCore's unscoped memory only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub ..⟩

/-! ## The result buffer after the operations -/

set_option maxRecDepth 8192 in
set_option maxHeartbeats 2000000 in
/-- The result buffer after the 58 operations, from any contents `V` of the buffers: the stages composed, of `V`'s three arguments. -/
theorem result_eq (V : Valuation τ sig (Elt F)) :
    after (ops (F := F)) V (Proc.devRef .tc main_v19)
      = classMean (V (Proc.devRef .tc main_arg2)) (rowSums (V (Proc.devRef .tc main_arg0)) (V (Proc.devRef .tc main_arg1))) := by
  after_results_simp
  rfl

set_option maxRecDepth 8192 in
set_option maxHeartbeats 2000000 in
/-- No operation writes an argument buffer. -/
theorem args_kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩ <;> after_results_simp

/-! ## The run -/

/-- On every device, for any float values, from any memory with zero counters: every weakly fair execution of @main
    terminates with the result at the stages' composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = classMean (m ((c.tc : Thread nD τ).loc main_arg2)) (rowSums (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (result_eq (launchContents m c)),
      (h c main_arg0).trans (args_kept (launchContents m c)).1,
      (h c main_arg1).trans (args_kept (launchContents m c)).2.1,
      (h c main_arg2).trans (args_kept (launchContents m c)).2.2⟩)
    (run_seq scopedRefs_eq scopedSems_eq defs main (fun _ => ops) main_eq (fun _ => ops_sub) m ρ)

end Cert.ReferenceIdeal.RefRun

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«167653_j5961414607235_1_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.LibRowKL.lean ====
/-
  The Kullback–Leibler sum of one row, with the log-softmax written in two arrangements.

  For a row `f` of `n ≥ 1` scores let `M` be its maximum (folded from -∞), and `L = log (Σ_i exp (f i - M))`.
  The log-softmax of the row at `k` is `f k - (M + L)` in one arrangement (the normaliser `M + L` is formed first and
  subtracted once) and `(f k - M) - L` in the other (the maximum is subtracted first, the logarithm afterwards). For two
  rows `f`, `g` the row's sum is `Σ_k exp (ls g k) · (ls g k - ls f k)`, with `ls` either arrangement.

  When every score is a real number, `M` is real (a maximum of finitely many reals over a nonempty range), every
  `exp (f i - M)` is a positive real, their sum is a positive real, so `L` is real; and for reals `a - (M + L) = (a - M) - L`.
  So the two arrangements agree entry by entry, and so do the two sums. (Over the extended reals in general they do not:
  with `f k = M = +∞` the differences are of the indeterminate form.)
-/
import Mathlib
import Idealize.ShloMosaic.PureOps.Ideal
import proofs.«167653_j5961414607235_1_alg».proof.Proof.LibRealSum
import proofs.«167653_j5961414607235_1_alg».proof.Proof.LibSoftmaxRow

noncomputable section

open scoped BigOperators

namespace Cert.LibRowKL

open Idealize.ShloMosaic Cert.LibRealSum Cert.LibSoftmaxRow

variable {n : ℕ}

/-- `L`: the logarithm of the sum of the exponentials of the scores less their maximum. -/
def logNorm (f : Fin n → EReal) : EReal := Ideal.log (∑ i, Ideal.exp (f i - rowMax f))

/-- The log-softmax with the normaliser `M + L` formed first: `f k - (M + L)`. -/
def logSoftOnce (f : Fin n → EReal) (k : Fin n) : EReal := f k - (rowMax f + logNorm f)

/-- The log-softmax with the maximum subtracted first: `(f k - M) - L`. -/
def logSoftTwice (f : Fin n → EReal) (k : Fin n) : EReal := (f k - rowMax f) - logNorm f

/-- The row's sum `Σ_k exp (ls g k) · (ls g k - ls f k)` in the first arrangement. -/
def rowKLOnce (f g : Fin n → EReal) : EReal :=
  ∑ k, Ideal.exp (logSoftOnce g k) * (logSoftOnce g k - logSoftOnce f k)

/-- The same sum in the second arrangement. -/
def rowKLTwice (f g : Fin n → EReal) : EReal :=
  ∑ k, Ideal.exp (logSoftTwice g k) * (logSoftTwice g k - logSoftTwice f k)

/-- With real scores over a nonempty range, `L` is a real number: the sum of the exponentials is a positive real. -/
theorem isReal_logNorm (hn : 0 < n) (f : Fin n → EReal) (hf : ∀ k, IsReal (f k)) : IsReal (logNorm f) := by
  obtain ⟨M, hM⟩ := isReal_rowMax hn f hf
  choose a ha using hf
  unfold logNorm
  rw [hM]
  have hexp : ∀ i, Ideal.exp (f i - (M : EReal)) = ((Real.exp (a i - M) : ℝ) : EReal) := fun i => by
    rw [ha i, ← EReal.coe_sub, Ideal.exp_coe]
  have hpos : 0 < ∑ i, Real.exp (a i - M) :=
    Finset.sum_pos (fun _ _ => Real.exp_pos _) ⟨⟨0, hn⟩, Finset.mem_univ _⟩
  simp only [hexp, ← coe_finset_sum]
  rw [Ideal.log_coe, if_neg (not_le.mpr hpos)]
  exact ⟨_, rfl⟩

/-- With real scores the two arrangements of the log-softmax agree at every entry. -/
theorem logSoftOnce_eq_logSoftTwice (hn : 0 < n) (f : Fin n → EReal) (hf : ∀ k, IsReal (f k)) (k : Fin n) :
    logSoftOnce f k = logSoftTwice f k := by
  obtain ⟨M, hM⟩ := isReal_rowMax hn f hf
  obtain ⟨L, hL⟩ := isReal_logNorm hn f hf
  obtain ⟨a, ha⟩ := hf k
  unfold logSoftOnce logSoftTwice
  rw [hM, hL, ha, ← EReal.coe_add, ← EReal.coe_sub, ← EReal.coe_sub, ← EReal.coe_sub]
  exact congrArg _ (by ring)

/-- With real scores in both rows the two arrangements of the row's sum agree. -/
theorem rowKLOnce_eq_rowKLTwice (hn : 0 < n) (f g : Fin n → EReal) (hf : ∀ k, IsReal (f k)) (hg : ∀ k, IsReal (g k)) :
    rowKLOnce f g = rowKLTwice f g := by
  unfold rowKLOnce rowKLTwice
  refine Finset.sum_congr rfl fun k _ => ?_
  rw [logSoftOnce_eq_logSoftTwice hn g hg k, logSoftOnce_eq_logSoftTwice hn f hf k]

end Cert.LibRowKL

end
-- ==== Proof.LibLogSoftmaxRows.lean ====
/-
  The row-wise log-softmax of an array [R, C] and the row sums built on it, read at an entry.

  A kernel and the host compute the log-softmax of every row of an array of extended reals with different operations and in
  different arrangements. The kernel reduces each row to its maximum `M` (from the word of -∞) and recasts the maxima as a
  column; it forms `exp (x - M)`, sums it along the row, takes the logarithm `L`, ADDS `M + L` in the column, spreads that
  column over the row and subtracts once: the entry `(p, k)` is `x p k - (M p + L p)`. The host reduces each row to its
  maximum, takes the maximum with -∞ once more (which changes nothing), spreads it over the row, subtracts it, and then
  subtracts the spread logarithm of the row's sum of exponentials: the entry is `(x p k - M p) - L p`.
  On top of either, a row's sum `Σ_k exp (ls x1 p k) · (ls x1 p k - ls x0 p k)`.

  Each of these arrays is read here at an entry as the one-row function of the row's entries (the specification of the two
  arrangements and the law that joins them on real numbers are in the module on the row's sum). No finiteness is needed
  for reading: the arrays ARE these functions of their rows over all extended reals.
-/
import Mathlib
import Idealize.ShloMosaic.PureOps.Ideal
import Idealize.ShloMosaic.PureOps.Ideal.Laws
import Idealize.ShloMosaic.Lib.Pipeline.Value
import Idealize.ShloMosaic.Lib.ValueIdx
import proofs.«167653_j5961414607235_1_alg».proof.Proof.LibRowReduce
import proofs.«167653_j5961414607235_1_alg».proof.Proof.LibColBroadcast
import proofs.«167653_j5961414607235_1_alg».proof.Proof.LibRowKL

noncomputable section

open scoped BigOperators

namespace Cert.LibLogSoftmaxRows

open Idealize.ShloMosaic Idealize.ShloMosaic.ValueIdx
open Cert.LibRowKL

variable {R C : ℕ}

/-- The two spellings of "the maximum of a row folded from -∞" are one definition. -/
theorem rowMax_eq (f : Fin C → EReal) : Cert.LibRowReduce.rowMax f = Cert.LibSoftmaxRow.rowMax f := rfl

/-- A reduction along axis 1 into a vector (at least one axis is left) from the same reduction stated for the host. -/
theorem reduces_of_reducesTo (h' : (⟨2, ![R, C]⟩ : Shape).ReducesTo [1] (⟨1, ![R]⟩ : Shape)) :
    (⟨2, ![R, C]⟩ : Shape).Reduces [1] (⟨1, ![R]⟩ : Shape) :=
  let ⟨e, f⟩ := h'; ⟨e, Nat.one_pos, f⟩

/-! ## Three host broadcasts read at an entry -/

section Broadcasts
variable {α : Type}

/-- A scalar spread over a vector [R] reads the scalar. -/
theorem bcast_scalar_vec_apply (b0 : (⟨0, ![]⟩ : Shape).BroadcastsInDim (⟨1, ![R]⟩ : Shape) ![])
    (v : (⟨0, ![]⟩ : Shape).Idx → α) (p : Fin R) : broadcastInDim (⟨1, ![R]⟩ : Shape) ![] b0 v (ix1 p) = v ix0 :=
  broadcastInDim_apply _ b0 v (ix1 p) ix0 (fun a => a.elim0)

/-- A vector [R] recast as the column [R, 1] along axis 0 reads its entry `p`. -/
theorem bcast_vec_col_apply (b1 : (⟨1, ![R]⟩ : Shape).BroadcastsInDim (⟨2, ![R, 1]⟩ : Shape) ![0])
    (v : (⟨1, ![R]⟩ : Shape).Idx → α) (p : Fin R) :
    broadcastInDim (⟨2, ![R, 1]⟩ : Shape) ![0] b1 v (ix2 p (0 : Fin 1)) = v (ix1 p) := by
  refine broadcastInDim_apply _ b1 v (ix2 p (0 : Fin 1)) (ix1 p) fun a => ?_
  match a with
  | ⟨0, _⟩ =>
    show p.val = if R = 1 then 0 else p.val
    split
    · have := p.isLt; omega
    · rfl

/-- A column [R, 1] spread over [R, C] reads, at `(p, k)`, the column's entry `p`. -/
theorem bcast_col_rows_apply (b2 : (⟨2, ![R, 1]⟩ : Shape).BroadcastsInDim (⟨2, ![R, C]⟩ : Shape) ![0, 1])
    (v : (⟨2, ![R, 1]⟩ : Shape).Idx → α) (p : Fin R) (k : Fin C) :
    broadcastInDim (⟨2, ![R, C]⟩ : Shape) ![0, 1] b2 v (ix2 p k) = v (ix2 p (0 : Fin 1)) := by
  refine broadcastInDim_apply _ b2 v (ix2 p k) (ix2 p (0 : Fin 1)) fun a => ?_
  match a with
  | ⟨0, _⟩ =>
    show p.val = if R = 1 then 0 else p.val
    split
    · have := p.isLt; omega
    · rfl
  | ⟨1, _⟩ => rfl

end Broadcasts

/-! ## The kernel's arrangement -/

section Kernel

variable (x x0 x1 : FVec Ideal ⟨2, ![R, C]⟩ .f32)
  (hr : (⟨2, ![R, C]⟩ : Shape).Reduces [1] (⟨1, ![R]⟩ : Shape)) (hφ : FKind.Formats .f32)
  (hmax : (0xFF800000#32 : BitVec 32) = FKind.maximumf.neutral .f32 hφ)
  (hadd : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- The rows' maxima as a column. -/
def kMaxCol : FVec Ideal ⟨2, ![R, 1]⟩ .f32 :=
  shapeCast ⟨2, ![R, 1]⟩ (multiReduction (F := Ideal) .maximumf [1] ⟨1, ![R]⟩ x 0xFF800000#32 hr hφ hmax) hc

/-- The rows' normalisers `M + L` as a column. -/
def kNormCol : FVec Ideal ⟨2, ![R, 1]⟩ .f32 :=
  addf (F := Ideal) (kMaxCol x hr hφ hmax hc)
    (log (F := Ideal) (shapeCast ⟨2, ![R, 1]⟩
      (multiReduction (F := Ideal) .add [1] ⟨1, ![R]⟩
        (exp (F := Ideal) (subf (F := Ideal) x (broadcastTo ⟨2, ![R, C]⟩ (kMaxCol x hr hφ hmax hc) hb))) 0x00000000#32 hr hφ hadd) hc))

/-- The kernel's log-softmax: every entry less its row's normaliser. -/
def kLogSoftmax : FVec Ideal ⟨2, ![R, C]⟩ .f32 :=
  subf (F := Ideal) x (broadcastTo ⟨2, ![R, C]⟩ (kNormCol x hr hφ hmax hadd hc hb) hb)

/-- The kernel's row sums as a column. -/
def kRowKL : FVec Ideal ⟨2, ![R, 1]⟩ .f32 :=
  shapeCast ⟨2, ![R, 1]⟩
    (multiReduction (F := Ideal) .add [1] ⟨1, ![R]⟩
      (mulf (F := Ideal) (exp (F := Ideal) (kLogSoftmax x1 hr hφ hmax hadd hc hb))
        (subf (F := Ideal) (kLogSoftmax x1 hr hφ hmax hadd hc hb) (kLogSoftmax x0 hr hφ hmax hadd hc hb)))
      0x00000000#32 hr hφ hadd) hc

theorem kMaxCol_apply (p : Fin R) :
    kMaxCol x hr hφ hmax hc (ix2 p (0 : Fin 1)) = Cert.LibSoftmaxRow.rowMax fun k => x (ix2 p k) :=
  (Cert.LibRowReduce.shapeCast_col_apply _ hc p).trans (Cert.LibRowReduce.multiReduction_max_row x hr hφ hmax p)

theorem kNormCol_apply (p : Fin R) :
    kNormCol x hr hφ hmax hadd hc hb (ix2 p (0 : Fin 1))
      = Cert.LibSoftmaxRow.rowMax (fun k => x (ix2 p k)) + logNorm (fun k => x (ix2 p k)) := by
  refine congrArg₂ (· + ·) (kMaxCol_apply x hr hφ hmax hc p) ?_
  refine congrArg Ideal.log ?_
  refine (Cert.LibRowReduce.shapeCast_col_apply _ hc p).trans ?_
  refine (Cert.LibRowReduce.multiReduction_add_row _ hr hφ hadd p).trans ?_
  refine Finset.sum_congr rfl fun k _ => ?_
  refine congrArg Ideal.exp ?_
  refine congrArg (x (ix2 p k) - ·) ?_
  exact (Cert.LibColBroadcast.broadcastTo_a1_ab_apply _ hb p k).trans (kMaxCol_apply x hr hφ hmax hc p)

/-- The kernel's log-softmax at `(p, k)` is the one-row function with the normaliser formed first. -/
theorem kLogSoftmax_apply (p : Fin R) (k : Fin C) :
    kLogSoftmax x hr hφ hmax hadd hc hb (ix2 p k) = logSoftOnce (fun j => x (ix2 p j)) k := by
  refine congrArg (x (ix2 p k) - ·) ?_
  exact (Cert.LibColBroadcast.broadcastTo_a1_ab_apply _ hb p k).trans (kNormCol_apply x hr hφ hmax hadd hc hb p)

/-- The kernel's row sum of row `p` is the row's sum in the first arrangement. -/
theorem kRowKL_apply (p : Fin R) :
    kRowKL x0 x1 hr hφ hmax hadd hc hb (ix2 p (0 : Fin 1))
      = rowKLOnce (fun k => x0 (ix2 p k)) (fun k => x1 (ix2 p k)) := by
  refine (Cert.LibRowReduce.shapeCast_col_apply _ hc p).trans ?_
  refine (Cert.LibRowReduce.multiReduction_add_row _ hr hφ hadd p).trans ?_
  refine Finset.sum_congr rfl fun k _ => ?_
  show Ideal.exp (kLogSoftmax x1 hr hφ hmax hadd hc hb (ix2 p k))
      * (kLogSoftmax x1 hr hφ hmax hadd hc hb (ix2 p k) - kLogSoftmax x0 hr hφ hmax hadd hc hb (ix2 p k)) = _
  rw [kLogSoftmax_apply x1 hr hφ hmax hadd hc hb p k, kLogSoftmax_apply x0 hr hφ hmax hadd hc hb p k]

end Kernel

/-! ## The host's arrangement -/

section Host

variable (x x0 x1 : FVec Ideal ⟨2, ![R, C]⟩ .f32)
  (h' : (⟨2, ![R, C]⟩ : Shape).ReducesTo [1] (⟨1, ![R]⟩ : Shape)) (hu : 0 < (⟨0, ![]⟩ : Shape).numel)
  (b0 : (⟨0, ![]⟩ : Shape).BroadcastsInDim (⟨1, ![R]⟩ : Shape) ![])
  (b1 : (⟨1, ![R]⟩ : Shape).BroadcastsInDim (⟨2, ![R, 1]⟩ : Shape) ![0])
  (b2 : (⟨2, ![R, 1]⟩ : Shape).BroadcastsInDim (⟨2, ![R, C]⟩ : Shape) ![0, 1])

/-- Every entry replaced by its row's maximum. -/
def hMaxSpread : FVec Ideal ⟨2, ![R, C]⟩ .f32 :=
  broadcastInDim ⟨2, ![R, C]⟩ ![0, 1] b2 (broadcastInDim ⟨2, ![R, 1]⟩ ![0] b1
    (maximumf (F := Ideal) (broadcastInDim ⟨1, ![R]⟩ ![] b0 (constant (F := Ideal) ⟨0, ![]⟩ .f32 0xFF800000#32))
      (Host.reduce FloatOps.maximumf x (constant (F := Ideal) ⟨0, ![]⟩ .f32 0xFF800000#32) h' hu)))

/-- Every entry less its row's maximum. -/
def hShifted : FVec Ideal ⟨2, ![R, C]⟩ .f32 := subf (F := Ideal) x (hMaxSpread x h' hu b0 b1 b2)

/-- The host's log-softmax. -/
def hLogSoftmax : FVec Ideal ⟨2, ![R, C]⟩ .f32 :=
  subf (F := Ideal) (hShifted x h' hu b0 b1 b2)
    (broadcastInDim ⟨2, ![R, C]⟩ ![0, 1] b2 (Host.log (F := Ideal) (broadcastInDim ⟨2, ![R, 1]⟩ ![0] b1
      (Host.reduceAdd (F := Ideal) (Host.exp (F := Ideal) (hShifted x h' hu b0 b1 b2))
        (constant (F := Ideal) ⟨0, ![]⟩ .f32 0x00000000#32) h' hu))))

/-- The host's row sums. -/
def hRowKL : FVec Ideal ⟨1, ![R]⟩ .f32 :=
  Host.reduceAdd (F := Ideal)
    (mulf (F := Ideal) (Host.exp (F := Ideal) (hLogSoftmax x1 h' hu b0 b1 b2))
      (subf (F := Ideal) (hLogSoftmax x1 h' hu b0 b1 b2) (hLogSoftmax x0 h' hu b0 b1 b2)))
    (constant (F := Ideal) ⟨0, ![]⟩ .f32 0x00000000#32) h' hu

theorem hMaxSpread_apply (p : Fin R) (k : Fin C) :
    hMaxSpread x h' hu b0 b1 b2 (ix2 p k) = Cert.LibSoftmaxRow.rowMax fun j => x (ix2 p j) := by
  refine (bcast_col_rows_apply b2 _ p k).trans ((bcast_vec_col_apply b1 _ p).trans ?_)
  show max (broadcastInDim (⟨1, ![R]⟩ : Shape) ![] b0 (constant (F := Ideal) ⟨0, ![]⟩ .f32 0xFF800000#32) (ix1 p))
      (Host.reduce FloatOps.maximumf x (constant (F := Ideal) ⟨0, ![]⟩ .f32 0xFF800000#32) h' hu (ix1 p)) = _
  rw [bcast_scalar_vec_apply b0 _ p]
  refine (Cert.LibRowReduce.max_negInf _).trans ?_
  exact Cert.LibRowReduce.hostReduce_max_row x _ (fun _ => rfl) h' (reduces_of_reducesTo h') hu p

theorem hShifted_apply (p : Fin R) (k : Fin C) :
    hShifted x h' hu b0 b1 b2 (ix2 p k) = x (ix2 p k) - Cert.LibSoftmaxRow.rowMax fun j => x (ix2 p j) :=
  congrArg (x (ix2 p k) - ·) (hMaxSpread_apply x h' hu b0 b1 b2 p k)

/-- The host's log-softmax at `(p, k)` is the one-row function with the maximum subtracted first. -/
theorem hLogSoftmax_apply (p : Fin R) (k : Fin C) :
    hLogSoftmax x h' hu b0 b1 b2 (ix2 p k) = logSoftTwice (fun j => x (ix2 p j)) k := by
  refine congrArg₂ (· - ·) (hShifted_apply x h' hu b0 b1 b2 p k) ?_
  refine (bcast_col_rows_apply b2 _ p k).trans ?_
  refine congrArg Ideal.log ?_
  refine (bcast_vec_col_apply b1 _ p).trans ?_
  refine (Cert.LibRowReduce.hostReduceAdd_row _ _ (fun _ => Ideal.ofBits_zero_f32) h' (reduces_of_reducesTo h') hu p).trans ?_
  refine Finset.sum_congr rfl fun j _ => ?_
  exact congrArg Ideal.exp (hShifted_apply x h' hu b0 b1 b2 p j)

/-- The host's row sum of row `p` is the row's sum in the second arrangement. -/
theorem hRowKL_apply (p : Fin R) :
    hRowKL x0 x1 h' hu b0 b1 b2 (ix1 p) = rowKLTwice (fun k => x0 (ix2 p k)) (fun k => x1 (ix2 p k)) := by
  refine (Cert.LibRowReduce.hostReduceAdd_row _ _ (fun _ => Ideal.ofBits_zero_f32) h' (reduces_of_reducesTo h') hu p).trans ?_
  refine Finset.sum_congr rfl fun k _ => ?_
  show Ideal.exp (hLogSoftmax x1 h' hu b0 b1 b2 (ix2 p k))
      * (hLogSoftmax x1 h' hu b0 b1 b2 (ix2 p k) - hLogSoftmax x0 h' hu b0 b1 b2 (ix2 p k)) = _
  rw [hLogSoftmax_apply x1 h' hu b0 b1 b2 p k, hLogSoftmax_apply x0 h' hu b0 b1 b2 p k]

end Host

/-! ## The two arrangements on real entries -/

/-- With every entry of both arrays a real number and at least one column, the kernel's column of row sums and the host's
    vector of row sums agree row by row. -/
theorem kRowKL_eq_hRowKL (hC : 0 < C) (x0 x1 : FVec Ideal ⟨2, ![R, C]⟩ .f32)
    (hx0 : ∀ i, Cert.LibRealSum.IsReal (x0 i)) (hx1 : ∀ i, Cert.LibRealSum.IsReal (x1 i))
    (hr : (⟨2, ![R, C]⟩ : Shape).Reduces [1] (⟨1, ![R]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩)
    (h' : (⟨2, ![R, C]⟩ : Shape).ReducesTo [1] (⟨1, ![R]⟩ : Shape)) (hu : 0 < (⟨0, ![]⟩ : Shape).numel)
    (b0 : (⟨0, ![]⟩ : Shape).BroadcastsInDim (⟨1, ![R]⟩ : Shape) ![])
    (b1 : (⟨1, ![R]⟩ : Shape).BroadcastsInDim (⟨2, ![R, 1]⟩ : Shape) ![0])
    (b2 : (⟨2, ![R, 1]⟩ : Shape).BroadcastsInDim (⟨2, ![R, C]⟩ : Shape) ![0, 1]) (p : Fin R) :
    kRowKL x0 x1 hr hφ hmax hadd hc hb (ix2 p (0 : Fin 1)) = hRowKL x0 x1 h' hu b0 b1 b2 (ix1 p) := by
  rw [kRowKL_apply, hRowKL_apply]
  exact rowKLOnce_eq_rowKLTwice hC _ _ (fun k => hx0 _) (fun k => hx1 _)

end Cert.LibLogSoftmaxRows

end
-- ==== Proof.KernelPay.lean ====
/-
  What the kernel body stores, as a function of the two blocks it loads.

  The body loads a block of 512 rows of each of the two score arrays and stores one column of 512 numbers. Written out,
  that column is the column of row sums `Σ_k exp (ls x1 p k) · (ls x1 p k - ls x0 p k)`, where `ls` is the row-wise
  log-softmax in the arrangement that forms each row's normaliser (its maximum plus the logarithm of its sum of
  exponentials) first and subtracts it once: the body's arithmetic is that expression, operation for operation.
-/
import proofs.«167653_j5961414607235_1_alg».proof.Proof.Gen.KernelIdeal.Skeleton
import proofs.«167653_j5961414607235_1_alg».proof.Proof.LibLogSoftmaxRows

noncomputable section

namespace Cert.KernelIdeal.RowValue

open Idealize.ShloMosaic Idealize.ShloMosaic.ValueIdx Cert.KernelIdeal Cert.KernelIdeal.Gen Cert.LibLogSoftmaxRows

/-- The body's stored value is the column of row sums of its two loaded blocks (first block: the scores whose
    log-softmax is subtracted; second block: the scores whose softmax weighs the difference). -/
theorem pay_eq (x0 x1 : Vec Ideal S512x1000 .f32) :
    k0_pay1 (F := Ideal) x0 x1
      = kRowKL (R := 512) (C := 1000) x0 x1 reduces_S512x1000_S512 (.inl rfl) rfl rfl shapeCasts_S512_S512x1
          broadcasts_S512x1_S512x1000 := rfl

/-- Row `p` of the stored column is the row's sum, in the first arrangement, of row `p` of the two blocks. -/
theorem pay_apply (x0 x1 : Vec Ideal S512x1000 .f32) (p : Fin 512) :
    k0_pay1 (F := Ideal) x0 x1 (ix2 p (0 : Fin 1))
      = Cert.LibRowKL.rowKLOnce (fun k : Fin 1000 => x0 (ix2 p k)) (fun k : Fin 1000 => x1 (ix2 p k)) := by
  rw [pay_eq]
  exact kRowKL_apply x0 x1 _ _ _ _ _ _ p

end Cert.KernelIdeal.RowValue

end
-- ==== Proof.KernelArray.lean ====
/-
  From the blocks the kernel writes to the whole output array.

  The kernel runs over 64 grid points. At point `t` it loads rows `512·t … 512·t + 511` of both score arrays (all 1000
  columns) and writes back rows `512·t … 512·t + 511` of the output column [32768, 1]. What it writes in row `p` of its
  block depends only on row `p` of its two loaded blocks, that is on row `512·t + p` of the two arrays: so every block
  written is the restriction of ONE function of the two whole arrays,
      rowKLArray a0 a1 (r, 0) = the row's sum (first arrangement) of row r of a0 and of a1 .
  The 64 blocks tile the output (row `r` lies in block `r / 512`), hence after the run the output array IS that function
  of the argument arrays.
-/
import proofs.«167653_j5961414607235_1_alg».proof.Proof.Gen.KernelIdeal.Frame
import proofs.«167653_j5961414607235_1_alg».proof.Proof.KernelPay
import Idealize.ShloMosaic.Lib.Pipeline.Value

set_option maxRecDepth 16384

noncomputable section

namespace Cert.KernelIdeal.RowValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem origin_zero : (![0, 0] : Fin 2 → Nat) = fun _ => 0 := funext fun a => by fin_cases a <;> rfl

/-- The row an index of the output column [32768, 1] lies in. -/
abbrev rowOf (i : S32768x1.Idx) : Fin 32768 := ⟨(i 0).val, idx2_lt0 i⟩

/-- The output column as one function of the two whole score arrays: at row `r`, the row's sum of row `r` of each. -/
def rowKLArray (a0 a1 : S32768x1000.Idx → Elt Ideal .f32) : S32768x1.Idx → Elt Ideal .f32 :=
  fun i => Cert.LibRowKL.rowKLOnce (fun k : Fin 1000 => a0 (ix2 (rowOf i) k)) (fun k : Fin 1000 => a1 (ix2 (rowOf i) k))

/-- The three index maps over the grid: both inputs' blocks move with the output's block along the rows and sit at
    column block 0; the output's row block stays below 64 and its column block is 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 63
    ∧ win0_2.index t (1 : Fin 2) = 0 :=
  (by decide +kernel : ∀ t : Fin grid0.N, _)

/-- Every one of the 64 row blocks of the output is some point's. -/
theorem index_onto : ∀ q : Fin 64, ∃ t : Fin cfg0.N, win0_2.index t = ![q.val, 0] :=
  (by decide +kernel : ∀ q : Fin 64, ∃ t : Fin grid0.N, win0_2.index t = ![q.val, 0])

/-- One stored entry: if row `p` of the two loaded blocks is row `rowOf i` of the two arrays, the stored column's entry in
    row `p` is the whole-array function at `i`. -/
theorem point_eq (a0 a1 : S32768x1000.Idx → Elt Ideal .f32) (x0 x1 : Vec Ideal S512x1000 .f32) (j : S512x1.Idx)
    (i : S32768x1.Idx) (p : Fin 512) (hp : (j 0).val = p.val)
    (h0 : ∀ k : Fin 1000, x0 (ix2 p k) = a0 (ix2 (rowOf i) k))
    (h1 : ∀ k : Fin 1000, x1 (ix2 p k) = a1 (ix2 (rowOf i) k)) :
    k0_pay1 (F := Ideal) x0 x1 j = rowKLArray a0 a1 i := by
  have hj : j = ix2 p (0 : Fin 1) := by
    funext a
    match a with
    | ⟨0, _⟩ => exact Fin.ext hp
    | ⟨1, _⟩ => exact Fin.ext (by have := idx2_lt1 j; show (j 1).val = 0; omega)
  rw [hj, pay_apply]
  unfold rowKLArray
  exact congrArg₂ Cert.LibRowKL.rowKLOnce (funext h0) (funext h1)

/-- What point `t` writes back is block `t` of the whole-array function of the arrays as the region finds them. -/
theorem flushed_eq (c : Dev nD) (t : Fin cfg0.N) :
    (dats m 0 c).flushed 2 t
      = ((cfg0.win 2).blk t).view.read (Elt Ideal) (rowKLArray (V m c main_arg0) (V m c main_arg1)) := by
  show (cfg0.win 2).cut (grid0.coords t) ((dats m 0 c).after 2 t) = _
  rw [after0_2]
  unfold out0_2
  rw [View.canon_unit_zero origin_zero]
  simp only [View.ld_unit_zero (S := S512x1000) origin_zero]
  obtain ⟨e0, e1, e2, e3, e4, e5⟩ := index_facts t
  funext j
  have hj0 : (j 0).val < 512 := (j 0).isLt
  show k0_pay1 (F := Ideal) (iblk m c 0 t) (iblk m c 1 t) j
      = rowKLArray (V m c main_arg0) (V m c main_arg1) (((cfg0.win 2).blk t).view.emb j)
  refine point_eq (V m c main_arg0) (V m c main_arg1) (iblk m c 0 t) (iblk m c 1 t) j
    (((cfg0.win 2).blk t).view.emb j) ⟨(j 0).val, hj0⟩ rfl ?_ ?_
  · intro k
    show V m c main_arg0 (((cfg0.win 0).blk t).view.emb (ix2 (⟨(j 0).val, hj0⟩ : Fin 512) k))
        = V m c main_arg0 (ix2 (rowOf (((cfg0.win 2).blk t).view.emb j)) k)
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      rw [e0]
    | ⟨1, _⟩ =>
      show win0_0.index t (1 : Fin 2) * 1000 + 1 * k.val = k.val
      rw [e1]; omega
  · intro k
    show V m c main_arg1 (((cfg0.win 1).blk t).view.emb (ix2 (⟨(j 0).val, hj0⟩ : Fin 512) k))
        = V m c main_arg1 (ix2 (rowOf (((cfg0.win 2).blk t).view.emb j)) k)
    refine congrArg (V m c main_arg1) (funext fun a => Fin.ext ?_)
    match a with
    | ⟨0, _⟩ =>
      show win0_1.index t (0 : Fin 2) * 512 + 1 * (j 0).val = win0_2.index t (0 : Fin 2) * 512 + 1 * (j 0).val
      rw [e2]
    | ⟨1, _⟩ =>
      show win0_1.index t (1 : Fin 2) * 1000 + 1 * k.val = k.val
      rw [e3]; omega

/-- An index of the output is in point `t`'s block iff each coordinate is in the block's range on its axis. -/
theorem mem_blk (t : Fin cfg0.N) (i : S32768x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0).slice (win0_2.rect t)).set ↔ _
  rw [View.set_slice_whole, Rect.mem_set_unit]
  exact Iff.rfl

/-- The blocks tile the output: row `r` lies in the block of the point whose row block is `r / 512`. -/
theorem covered (i : S32768x1.Idx) :
    ∃ t : Fin cfg0.N, (cfg0.win 2).flush t = true ∧ i ∈ ((cfg0.win 2).blk t).view.set := by
  have hi0 : (i 0).val < 32768 := idx2_lt0 i
  have hi1 : (i 1).val < 1 := idx2_lt1 i
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1 ≤ (i 1).val ∧ (i 1).val < win0_2.index t (1 : Fin 2) * 1 + 1
    omega

/-- The output array after the run is the whole-array function of the argument arrays as the region finds them. -/
theorem final (c : Dev nD) :
    (dats m 0 c).arrAt 2 cfg0.N = rowKLArray (V m c main_arg0) (V m c main_arg1) :=
  (dats m 0 c).arrAt_eq_of_cover 2 (rowKLArray (V m c main_arg0) (V m c main_arg1))
    (fun t _ => flushed_eq m c t) covered

end Cert.KernelIdeal.RowValue

end
-- ==== Proof.KernelTail.lean ====
/-
  The kernel program's host operations after the region, read at the result.

  After the region the program reshapes the output column [32768, 1] to a vector [32768] and applies to it and to the
  labels the same 23 operations as the reference applies to its row sums: two scatter-adds by label (of the vector and of
  ones) into 1000 classes, the comparison of the counts with zero, the quotient by 1000 times the count, the selection
  against zero, the sum of the 1000 classes. So the result buffer ends holding `classMean labels (the output column as a
  vector)` — the SAME function `classMean` as the reference's, the two programs' shape records being field for field
  the same.
-/
import proofs.«167653_j5961414607235_1_alg».proof.Proof.Gen.KernelIdeal.Frame
import proofs.«167653_j5961414607235_1_alg».proof.Proof.RefRun
import Idealize.ShloMosaic.Lib.StableHlo.Run

noncomputable section

namespace Cert.KernelIdeal.RowValue

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable {F : FTy → Type} [FloatOps F]

/-- How many rows carry each of the 1000 labels, over the kernel program's shape records. -/
def countsK (lbl : IVec S32768 32) : FVec F S1000 .f32 :=
  Host.scatterAdd scatter_S1000_S32768x1_S32768_n_0_0_1 (broadcastInDim S1000 ![] bcast_S_S1000 (constant S_ .f32 0x00000000#32)) (broadcastInDim S32768x1 ![0] bcast_S32768_S32768x1_0 lbl) (broadcastInDim S32768 ![] bcast_S_S32768 (constant S_ .f32 0x3F800000#32))

/-- The tail as one function of the labels and the per-row numbers, over the kernel program's shape records. -/
def classMeanK (lbl : IVec S32768 32) (rk : FVec F S32768 .f32) : FVec F S_ .f32 :=
  Host.reduceAdd (select (cmpf .ogt (countsK (F := F) lbl) (broadcastInDim S1000 ![] bcast_S_S1000 (constant S_ .f32 0x00000000#32))) (Host.divf (Host.scatterAdd scatter_S1000_S32768x1_S32768_n_0_0_1 (broadcastInDim S1000 ![] bcast_S_S1000 (constant S_ .f32 0x00000000#32)) (broadcastInDim S32768x1 ![0] bcast_S32768_S32768x1_0 lbl) rk) (mulf (countsK (F := F) lbl) (broadcastInDim S1000 ![] bcast_S_S1000 (constant S_ .f32 0x447A0000#32)))) (broadcastInDim S1000 ![] bcast_S_S1000 (id (constant S_ .f32 0x00000000#32)))) (constant S_ .f32 0x00000000#32) reducesTo_S1000_S_d0 h_S_

/-- The output column [32768, 1] as the vector [32768] the program reshapes it to. -/
def asVector (a : FVec F S32768x1 .f32) : FVec F S32768 .f32 :=
  fun i => shapeCast S32768 a shapeCasts_S32768x1_S32768 i

/-- The kernel program's tail is the reference's, for any float values: the same operations over the two programs' records
    of shapes and dimension numbers, which agree field by field. -/
theorem classMeanK_eq (lbl : IVec S32768 32) (rk : FVec F S32768 .f32) :
    classMeanK lbl rk = Cert.ReferenceIdeal.RefRun.classMean (F := F) lbl rk := rfl

set_option maxRecDepth 8192 in
set_option maxHeartbeats 1000000 in
/-- The result buffer after the 24 operations of the tail, from any contents `W` of the buffers. -/
theorem tail_after (W : Valuation τ sig (Elt F)) :
    after (List.flatten [hostOps1 (F := F), hostOps1_1, hostOps1_2]) W (Proc.devRef .tc main_v15)
      = classMeanK (W (Proc.devRef .tc main_arg2)) (asVector (W (Proc.devRef .tc main_v0))) := by
  simp only [hostOps1, hostOps1_1, hostOps1_2, List.flatten_cons, List.flatten_nil, List.append_nil, List.cons_append,
    List.nil_append]
  after_results_simp
  rfl

variable (m : (ℓ : Loc nD τ sig) → Buf (Elt F) ℓ)

/-- The program's result as the frame run states it: the tail of the labels as launched and of the output array after the
    region, as a vector. -/
theorem tail_eq (c : Dev nD) :
    Pipeline.afterTail₀ cfgs (dats m) 0 (V0 m) [hostOps1, hostOps1_1, hostOps1_2] c main_v15
      = classMeanK (m ((c : Thread nD τ).loc main_arg2)) (asVector ((dats m 0 c).arrAt 2 cfg0.N)) := by
  unfold Pipeline.afterTail₀
  rw [tail_after]
  have hout : Pipeline.withArrays (cfgs 0).spec c (V0 m c) (fun w => (dats m 0 c).arrAt w (cfgs 0).N) (Proc.devRef .tc main_v0)
      = (dats m 0 c).arrAt 2 cfg0.N := Pipeline.withArrays_arr spec0 launch0.win.arr_inj c _ _ 2
  have hlbl : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [hout, hlbl]

end Cert.KernelIdeal.RowValue

end
-- ==== Proof.KernelRun.lean ====
/-
  The kernel program's run with its result named.

  The frame run of the program ends with every array of the pipeline at what the pipeline's write-backs leave and every
  other buffer as the host operations after the region leave it. Read at the result buffer this says: the result is the
  tail (`classMeanK`) of the labels as launched and of the output column after the region, which is the whole-array
  function `rowKLArray` of the two score arrays as launched. The argument arrays end as launched.
-/
import proofs.«167653_j5961414607235_1_alg».proof.Proof.KernelArray
import proofs.«167653_j5961414607235_1_alg».proof.Proof.KernelTail

noncomputable section

namespace Cert.KernelIdeal.RowValue

open Idealize.ShloMosaic Idealize.ShloMosaic.TcCoe
open Idealize.SL Idealize.SL.Sem
open Idealize.ShloMosaic.Pipeline (Dat Cfg Window)
open Cert.KernelIdeal Cert.KernelIdeal.Gen

/-- Every weakly fair execution of the kernel program terminates with the result at the tail of the labels and of the
    whole-array function of the two score arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v15)
          = classMeanK (F := Ideal) (m ((c.tc : Thread nD τ).loc main_arg2))
              (asVector (F := Ideal) (rowKLArray (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans
        ((tail_eq (F := Ideal) m c).trans (congrArg (fun a => classMeanK (F := Ideal) (m ((c.tc : Thread nD τ).loc main_arg2)) (asVector (F := Ideal) a)) (final m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RowValue

end
-- ==== Proof.RefValue.lean ====
/-
  The reference's row sums, read at a row.

  The reference's stage `rowSums` is, operation for operation, the host arrangement of the row-wise log-softmax (the
  maximum subtracted first, the logarithm of the sum of exponentials afterwards) followed by the row's sum
  `Σ_k exp (ls x1) · (ls x1 - ls x0)`; so at row `p` it is the one-row sum, second arrangement, of row `p` of the two arrays.
-/
import proofs.«167653_j5961414607235_1_alg».proof.Proof.RefRun
import proofs.«167653_j5961414607235_1_alg».proof.Proof.LibLogSoftmaxRows

noncomputable section

namespace Cert.ReferenceIdeal.RefValue

open Idealize.ShloMosaic Idealize.ShloMosaic.ValueIdx
open Cert.ReferenceIdeal Cert.ReferenceIdeal.Gen Cert.ReferenceIdeal.RefRun Cert.LibLogSoftmaxRows

section
-- The reductions are the same terms on both sides of the equation below: each stays one symbol.
attribute [local irreducible] Host.reduce Host.reduceAdd

/-- The reference's row sums are the host arrangement's, at the reference's shapes. -/
theorem rowSums_eq (x0 x1 : FVec Ideal S32768x1000 .f32) :
    rowSums (F := Ideal) x0 x1
      = hRowKL (R := 32768) (C := 1000) x0 x1 reducesTo_S32768x1000_S32768_d1 h_S_ bcast_S_S32768
          bcast_S32768_S32768x1_0 bcast_S32768x1_S32768x1000_0_1 := rfl

end

/-- Row `p` of the reference's row sums is the row's sum, second arrangement, of row `p` of the two arrays. -/
theorem rowSums_apply (x0 x1 : FVec Ideal S32768x1000 .f32) (p : Fin 32768) :
    rowSums (F := Ideal) x0 x1 (ix1 p)
      = Cert.LibRowKL.rowKLTwice (fun k : Fin 1000 => x0 (ix2 p k)) (fun k : Fin 1000 => x1 (ix2 p k)) := by
  rw [rowSums_eq]
  exact hRowKL_apply x0 x1 _ _ _ _ _ p

end Cert.ReferenceIdeal.RefValue

end
-- ==== Proof.Bridge.lean ====
/-
  The two programs' per-row numbers agree on real inputs.

  The kernel program's output column, read as a vector, has at row `r` the row's sum of row `r` of the two score arrays
  with the log-softmax's normaliser formed first; the reference's row sums have at row `r` the same sum with the maximum
  subtracted first. When every entry of both arrays is a real number the two arrangements agree (the row's maximum and
  the logarithm of its sum of exponentials are then real numbers, and for reals `a - (M + L) = (a - M) - L`).
-/
import proofs.«167653_j5961414607235_1_alg».proof.Proof.KernelArray
import proofs.«167653_j5961414607235_1_alg».proof.Proof.KernelTail
import proofs.«167653_j5961414607235_1_alg».proof.Proof.RefValue

noncomputable section

namespace Cert.Bridge

open Idealize.ShloMosaic Idealize.ShloMosaic.ValueIdx Cert.LibRealSum
open Cert.KernelIdeal.RowValue

/-- The output column [32768, 1] read as a vector: entry `r` is the column's entry `(r, 0)`. -/
theorem asVector_apply (a : FVec Ideal Cert.KernelIdeal.S32768x1 .f32) (p : Fin 32768) :
    asVector (F := Ideal) a (ix1 p) = a (ix2 p (0 : Fin 1)) := by
  refine shapeCast_apply a _ (ix1 p) (ix2 p (0 : Fin 1)) ?_
  rw [Shape.rowMajor_val_two, Shape.rowMajor_val_one]
  show p.val * 1 + 0 = p.val
  omega

/-- With real entries, the kernel program's per-row numbers are the reference's. -/
theorem rows_agree (a0 a1 : FVec Ideal Cert.KernelIdeal.S32768x1000 .f32)
    (h0 : ∀ i, IsReal (a0 i)) (h1 : ∀ i, IsReal (a1 i)) :
    asVector (F := Ideal) (rowKLArray a0 a1) = Cert.ReferenceIdeal.RefRun.rowSums (F := Ideal) a0 a1 := by
  funext i
  obtain ⟨p, rfl⟩ : ∃ p : Fin 32768, i = ix1 p := ⟨i 0, eq_ix1 i⟩
  rw [asVector_apply, Cert.ReferenceIdeal.RefValue.rowSums_apply]
  show Cert.LibRowKL.rowKLOnce (fun k : Fin 1000 => a0 (ix2 p k)) (fun k : Fin 1000 => a1 (ix2 p k)) = _
  exact Cert.LibRowKL.rowKLOnce_eq_rowKLTwice (by norm_num) _ _ (fun k => h0 _) (fun k => h1 _)

end Cert.Bridge

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«167653_j5961414607235_1_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
/-
  Under the precondition every entry of the two score arrays is a real number.

  The precondition is the conjunction of two tests, one per score array: "every entry's absolute value is below +∞", each
  computed as a reduction by "and" over the whole array of the entrywise comparisons. The conjunction is 1 only if both
  reductions are, a reduction by "and" from 1 is 1 only if every comparison is, and an extended real whose absolute value
  is below +∞ is neither infinity. (The integer labels are not constrained.)
-/
import proofs.«167653_j5961414607235_1_alg».proof.Pre_finite_inputs
import proofs.«167653_j5961414607235_1_alg».proof.Proof.Gen.Pre_finite_inputs
import Idealize.ShloMosaic.Lib.Affine
import proofs.«167653_j5961414607235_1_alg».proof.Proof.LibFiniteAll

noncomputable section

namespace Cert.FiniteInputs

open Idealize.ShloMosaic Cert.LibRealSum

/-- If the precondition's word is 1, both score arrays consist of real numbers. -/
theorem real_of_pre [Cert.Pre_finite_inputs.Facts] (a0 a1 : FVec Ideal Cert.Pre_finite_inputs.S32768x1000 .f32)
    (a2 : IVec Cert.Pre_finite_inputs.S32768 32)
    (h : Cert.Pre_finite_inputs.fn (F := Ideal) a0 a1 a2 = fun _ => 1#1) :
    (∀ i, IsReal (a0 i)) ∧ (∀ i, IsReal (a1 i)) := by
  have h0 := congrFun h ValueIdx.ix0
  dsimp only [Cert.Pre_finite_inputs.fn] at h0
  obtain ⟨e0, e1⟩ := IntOp.andi_eq_one.mp h0
  exact ⟨fun i => Cert.Lib.FiniteAll.all_real a0 _ _ _ _ e0 i, fun i => Cert.Lib.FiniteAll.all_real a1 _ _ _ _ e1 i⟩

end Cert.FiniteInputs

end
-- ==== Proof.lean ====
/-
  The segmented Kullback–Leibler loss: a kernel for the per-row sums against the plain reference.

  From two arrays `f1`, `f2` of 32768 rows of 1000 scores and 32768 integer labels both programs compute one number.
  Per row `r`: with `ls` the row-wise log-softmax, the row's sum `Σ_k exp (ls f2 r k) · (ls f2 r k - ls f1 r k)`. Then, the same
  way in both programs: the row sums and ones are scatter-added by label into 1000 classes, each class's sum is divided by
  1000 times its count, classes with no row count as zero, and the 1000 quotients are added.

  The two programs differ in the log-softmax only. The kernel (one grid point per block of 512 rows) forms each row's
  normaliser `M + L` — the row's maximum plus the logarithm of its sum of exponentials of the scores less the maximum — and
  subtracts it once, `f r k - (M + L)`; the reference subtracts the maximum first and the logarithm afterwards,
  `(f r k - M) - L`. Over the extended reals these differ at infinite scores; under the precondition every score is a real
  number, `M` and `L` are real numbers, and the two agree. That is the only place the precondition is used.

  The parts: the one-row specification and the law joining the two arrangements (on real scores); both programs'
  operations read at an entry as that specification; the kernel's blocks assembled into its whole output array (the 64
  blocks of 512 rows tile it); the host operations after the region read at the result; the reference's run as its three
  stages; and the precondition read as "every score is real". `preserves` has no conjunct: the idealization rewrote nothing.
-/
import proofs.«167653_j5961414607235_1_alg».proof.Defs
import proofs.«167653_j5961414607235_1_alg».proof.Proof.Gen.Kernel
import proofs.«167653_j5961414607235_1_alg».proof.Proof.Gen.Kernel.Skeleton
import proofs.«167653_j5961414607235_1_alg».proof.Proof.Gen.Kernel.Launch
import proofs.«167653_j5961414607235_1_alg».proof.Proof.Gen.Kernel.Points
import proofs.«167653_j5961414607235_1_alg».proof.Proof.Gen.Kernel.Frame
import proofs.«167653_j5961414607235_1_alg».proof.Proof.Gen.KernelIdeal
import proofs.«167653_j5961414607235_1_alg».proof.Proof.Gen.KernelIdeal.Skeleton
import proofs.«167653_j5961414607235_1_alg».proof.Proof.Gen.KernelIdeal.Launch
import proofs.«167653_j5961414607235_1_alg».proof.Proof.Gen.KernelIdeal.Points
import proofs.«167653_j5961414607235_1_alg».proof.Proof.Gen.KernelIdeal.Frame
import proofs.«167653_j5961414607235_1_alg».proof.Proof.Gen.ReferenceIdeal
import proofs.«167653_j5961414607235_1_alg».proof.Proof.Gen.Pre_finite_inputs
import proofs.«167653_j5961414607235_1_alg».proof.Proof.RefRun
import proofs.«167653_j5961414607235_1_alg».proof.Proof.KernelRun
import proofs.«167653_j5961414607235_1_alg».proof.Proof.Bridge
import proofs.«167653_j5961414607235_1_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- From memories agreeing on the arguments both programs end at `classMean labels (rowSums f1 f2)`: the reference by its
    run; the kernel program at the same tail of its output column read as a vector, which under the precondition (every
    score real) is the reference's row sums. -/
theorem algebraic : Cert.algebraic_KernelIdeal_ReferenceIdeal := by
  intro m ρ m' ρ' hpre hagree
  refine ⟨fun c => Cert.ReferenceIdeal.RefRun.classMean (F := Ideal)
      (m ((c.tc : Thread Cert.KernelIdeal.nD Cert.KernelIdeal.τ).loc Cert.KernelIdeal.main_arg2))
      (Cert.ReferenceIdeal.RefRun.rowSums (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.RowValue.run m ρ)
    obtain ⟨r0, r1⟩ := Cert.FiniteInputs.real_of_pre _ _ _ (hpre c)
    rw [Cert.KernelIdeal.RowValue.classMeanK_eq (F := Ideal), Cert.Bridge.rows_agree _ _ r0 r1]
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
